-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x16x16 : Shape := ⟨4, ![256, 1024, 16, 16]⟩
abbrev S_ : Shape := ⟨0, ![]⟩

class Facts : Prop where
  bcast_S_S256x1024x16x16 : S_.BroadcastsInDim S256x1024x16x16 (![] : Fin 0 → Fin S256x1024x16x16.rank)
  reducesTo_S256x1024x16x16_S_d0_1_2_3 : S256x1024x16x16.ReducesTo [0, 1, 2, 3] S_
  h_S_ : 0 < S_.numel

variable [Facts]

def fn {F : FTy → Type} [FloatOps F] (main_arg0 : FVec F S256x1024x16x16 .f32) : IVec S_ 1 :=
  let main_v0 : FVec F S256x1024x16x16 .f32 := Host.absf main_arg0
  let main_cst : FVec F S_ .f32 := constant S_ .f32 0x7F800000#32
  let main_v1 : FVec F S256x1024x16x16 .f32 := broadcastInDim S256x1024x16x16 ![] bcast_S_S256x1024x16x16 main_cst
  let main_v2 : IVec S256x1024x16x16 1 := cmpf .olt main_v0 main_v1
  let main_c : IVec S_ 1 := constantI S_ 1 1#1
  let main_v3 : IVec S_ 1 := (fun x v => Host.reduce IntOp.andi x v reducesTo_S256x1024x16x16_S_d0_1_2_3 h_S_) main_v2 main_c
  main_v3
-- ==== Kernel.lean ====
abbrev S256x1024x16x16 : Shape := ⟨4, ![256, 1024, 16, 16]⟩
abbrev S256x1024x256 : Shape := ⟨3, ![256, 1024, 256]⟩
abbrev S256x512x512 : Shape := ⟨3, ![256, 512, 512]⟩
abbrev S8x1024x256 : Shape := ⟨3, ![8, 1024, 256]⟩
abbrev S8x512x512 : Shape := ⟨3, ![8, 512, 512]⟩
abbrev S1x1024x256 : Shape := ⟨3, ![1, 1024, 256]⟩
abbrev S1024x256 : Shape := ⟨2, ![1024, 256]⟩
abbrev S256x1024 : Shape := ⟨2, ![256, 1024]⟩
abbrev S16x512x32 : Shape := ⟨3, ![16, 512, 32]⟩
abbrev S16x32x512 : Shape := ⟨3, ![16, 32, 512]⟩
abbrev S512x512 : Shape := ⟨2, ![512, 512]⟩
abbrev S1x512x512 : Shape := ⟨3, ![1, 512, 512]⟩
abbrev S256x1x512x512 : Shape := ⟨4, ![256, 1, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S256x1024x16x16, .f32⟩
  | .hbm, ⟨1, _⟩ => ⟨S256x1024x256, .f32⟩
  | .hbm, ⟨2, _⟩ => ⟨S256x512x512, .f32⟩
  | .hbm, ⟨3, _⟩ => ⟨S256x1x512x512, .f32⟩
  | .local _ .vmem, ⟨0, _⟩ => ⟨S8x1024x256, .f32⟩
  | .local _ .vmem, ⟨1, _⟩ => ⟨S8x1024x256, .f32⟩
  | .local _ .vmem, ⟨2, _⟩ => ⟨S8x512x512, .f32⟩
  | .local _ .vmem, ⟨3, _⟩ => ⟨S8x512x512, .f32⟩
  | _, _ => ⟨S256x1024x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v1 : Index := Scalar.indexCast arg3
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let v8 : Index := Scalar.indexCast arg3
  let c0_2 : Index := 0#32
  let c0_3 : Index := 0#32
  ![v8.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x1024x16x16_S256x1024x256 : S256x1024x16x16.ShapeCasts S256x1024x256
  h_S1x1024x256 : 0 < S1x1024x256.numel
  shapeCasts_S1x1024x256_S1024x256 : S1x1024x256.ShapeCasts S1024x256
  transposes_S1024x256_p1_0_S256x1024 : S1024x256.Transposes [1, 0] S256x1024
  shapeCasts_S256x1024_S16x512x32 : S256x1024.ShapeCasts S16x512x32
  transposes_S16x512x32_p0_2_1_S16x32x512 : S16x512x32.Transposes [0, 2, 1] S16x32x512
  shapeCasts_S16x32x512_S512x512 : S16x32x512.ShapeCasts S512x512
  h_S1x512x512 : 0 < S1x512x512.numel
  shapeCasts_S1x512x512_S512x512 : S1x512x512.ShapeCasts S512x512
  shapeCasts_S512x512_S1x512x512 : S512x512.ShapeCasts S1x512x512
  bcast_S256x512x512_S256x1x512x512_0_2_3 : S256x512x512.BroadcastsInDim S256x1x512x512 (![0, 2, 3] : Fin 3 → Fin S256x1x512x512.rank)
  hrank0 : 0 < grid0.rank
  k0_t1_ok : k0_t1_loop.OK
  k0_off1_inb : ∀ k0_t1 : Fin k0_t1_loop.trips, ∀ a, (k0_off1 k0_t1) a + S1x1024x256.size a ≤ S8x1024x256.size a
  k0_off2_inb : ∀ k0_t1 : Fin k0_t1_loop.trips, ∀ a, (k0_off2 k0_t1) a + S1x512x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S256x1024x256.size a
  hwx0_0 : ∀ i : grid0.Coords, EltTy.bits .f32 = 32 ∨ (Rect.block (s := S256x1024x256) S8x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S256x512x512.size a
  hwx0_1 : ∀ i : grid0.Coords, EltTy.bits .f32 = 32 ∨ (Rect.block (s := S256x512x512) S8x512x512.size (cc0_transform_1 i) (hinb0_1 i)).WholeWords (EltTy.packing .f32)

variable [Facts₀]

abbrev win0_0 : Pipeline.Window sig grid0 :=
  Pipeline.Window.ofSpec (Memref.whole main_v0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x1024x16x16 : Shape := ⟨4, ![256, 1024, 16, 16]⟩
abbrev S256x32x32x16x16 : Shape := ⟨5, ![256, 32, 32, 16, 16]⟩
abbrev S256x16x32x16x32 : Shape := ⟨5, ![256, 16, 32, 16, 32]⟩
abbrev S256x1x512x512 : Shape := ⟨4, ![256, 1, 512, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x1024x16x16, .f32⟩
  | .hbm, ⟨1, _⟩ => ⟨S256x32x32x16x16, .f32⟩
  | .hbm, ⟨2, _⟩ => ⟨S256x16x32x16x32, .f32⟩
  | .hbm, ⟨3, _⟩ => ⟨S256x1x512x512, .f32⟩
  | _, _ => ⟨S256x1024x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S256x1024x16x16_S256x32x32x16x16 : S256x1024x16x16.ShapeCasts S256x32x32x16x16
  transposes_S256x32x32x16x16_S256x16x32x16x32_0_3_2_4_1 : S256x32x32x16x16.Transposes [0, 3, 2, 4, 1] S256x16x32x16x32
  shapeCasts_S256x16x32x16x32_S256x1x512x512 : S256x16x32x16x32.ShapeCasts S256x1x512x512

variable [Facts₀]

class Facts : Prop extends Facts₀ where

variable [Facts]
-- ==== Proof.Shuffle.lean ====
/-
  The rearrangement both programs compute, as one function of the argument array, and the relayout of one example read at an
  index.

  The argument is an array x[n, ch, h, w] of 256 examples, 1024 = 32 * 32 channels and 16 x 16 pixels. The result is an
  image array y[n, 0, r, c] with 512 = 16 * 32 rows and columns: the channel ch = j * 32 + i of pixel (h, w) lands in row
  h * 32 + i and column w * 32 + j. Read backwards, the entry at row r and column c comes from pixel (r / 32, c / 32) and
  from the channel (c % 32) * 32 + r % 32. Nothing is computed on the entries: every statement here is about which
  entry is read, for entries of any type.
-/
import Idealize.ShloMosaic.Lib.ValueIdx
import Idealize.ShloMosaic.Lib.Pipeline.Value

noncomputable section

namespace Cert.Shuffle

open Idealize.ShloMosaic Idealize.ShloMosaic.ValueIdx

/-! ## Shapes -/

/-- The argument: examples, channels, pixel rows, pixel columns. -/
abbrev SArg : Shape := ⟨4, ![256, 1024, 16, 16]⟩
/-- The argument with the two pixel axes merged into one of 256. -/
abbrev SMerged : Shape := ⟨3, ![256, 1024, 256]⟩
/-- The images, one per example. -/
abbrev SImages : Shape := ⟨3, ![256, 512, 512]⟩
/-- The result: the images with a unit channel axis. -/
abbrev SRes : Shape := ⟨4, ![256, 1, 512, 512]⟩
/-- One example, channels by merged pixels, with its unit leading axis; -/
abbrev SSlab : Shape := ⟨3, ![1, 1024, 256]⟩
/-- without it; -/
abbrev SChanPix : Shape := ⟨2, ![1024, 256]⟩
/-- transposed; -/
abbrev SPixChan : Shape := ⟨2, ![256, 1024]⟩
/-- split as pixel row, (pixel column, channel's high half), channel's low half; -/
abbrev SRowColSub : Shape := ⟨3, ![16, 512, 32]⟩
/-- with the last two exchanged; -/
abbrev SRowSubCol : Shape := ⟨3, ![16, 32, 512]⟩
/-- merged into one image; -/
abbrev SImage : Shape := ⟨2, ![512, 512]⟩
/-- and the image with a unit leading axis. -/
abbrev SImage1 : Shape := ⟨3, ![1, 512, 512]⟩

/-! ## Where an image entry comes from -/

/-- The pixel coordinate of an image coordinate: which of the 16 tiles of 32 it lies in. -/
def tileOf (r : Fin 512) : Fin 16 := ⟨r.val / 32, by have := r.isLt; omega⟩
/-- The position inside the tile. -/
def within (r : Fin 512) : Fin 32 := ⟨r.val % 32, by have := r.isLt; omega⟩
/-- The channel read at row r and column c: the column's position inside its tile is the high half, the row's the low half. -/
def chan (r c : Fin 512) : Fin 1024 := ⟨(c.val % 32) * 32 + r.val % 32, by have := r.isLt; have := c.isLt; omega⟩
/-- The merged pixel read at row r and column c. -/
def pix (r c : Fin 512) : Fin 256 := ⟨(r.val / 32) * 16 + c.val / 32, by have := r.isLt; have := c.isLt; omega⟩

/-- The argument index the result's entry at i is read from. -/
def src (i : SRes.Idx) : SArg.Idx := ix4 (i 0) (chan (i 2) (i 3)) (tileOf (i 2)) (tileOf (i 3))

/-- THE SPECIFICATION: the result as a function of the argument, index by index. -/
def shuffled {α : Type} (x : SArg.Idx → α) : SRes.Idx → α := fun i => x (src i)

/-! ## One example's relayout, read at an index -/

/-- Six layout steps take one example, as channels by merged pixels, to its image: drop the unit axis, transpose, split the
    rows into pixel rows and pixel columns and the columns into the channel's two halves, exchange the last two axes, merge
    into 512 x 512, add a unit axis. The entry at row r, column c of the image is the example's entry at channel
    chan r c and merged pixel pix r c: each step keeps the row-major position or permutes coordinates. -/
theorem relayout_apply {α : Type} (v : SSlab.Idx → α)
    (h1 : SSlab.ShapeCasts SChanPix) (h2 : SChanPix.Transposes [1, 0] SPixChan) (h3 : SPixChan.ShapeCasts SRowColSub)
    (h4 : SRowColSub.Transposes [0, 2, 1] SRowSubCol) (h5 : SRowSubCol.ShapeCasts SImage) (h6 : SImage.ShapeCasts SImage1)
    (z : Fin 1) (r c : Fin 512) :
    shapeCast SImage1 (shapeCast SImage (transpose SRowSubCol [0, 2, 1] (shapeCast SRowColSub
      (transpose SPixChan [1, 0] (shapeCast SChanPix v h1) h2) h3) h4) h5) h6 (ix3 z r c)
      = v (ix3 (0 : Fin 1) (chan r c) (pix r c)) := by
  have hz : z.val < 1 := z.isLt
  have hr : r.val < 512 := r.isLt
  have hc : c.val < 512 := c.isLt
  -- the unit axis: the same position in the image
  refine (shapeCast_apply _ h6 (ix3 z r c) (ix2 r c) ?_).trans ?_
  · rw [Shape.rowMajor_val_two, Shape.rowMajor_val_three]
    show r.val * 512 + c.val = (z.val * 512 + r.val) * 512 + c.val
    omega
  -- row r is pixel row r / 32, position r % 32 inside it
  refine (shapeCast_apply _ h5 (ix2 r c) (ix3 (tileOf r) (within r) c) ?_).trans ?_
  · rw [Shape.rowMajor_val_three, Shape.rowMajor_val_two]
    show ((r.val / 32) * 32 + r.val % 32) * 512 + c.val = r.val * 512 + c.val
    omega
  -- the exchange of the last two axes
  refine (transpose_apply [0, 2, 1] _ h4 (ix3 (tileOf r) (within r) c) (ix3 (tileOf r) c (within r)) (fun b => ?_)).trans ?_
  · match b with
    | ⟨0, _⟩ => rfl
    | ⟨1, _⟩ => rfl
    | ⟨2, _⟩ => rfl
  -- (pixel row, column, low half) is merged pixel pix r c and channel chan r c
  refine (shapeCast_apply _ h3 (ix3 (tileOf r) c (within r)) (ix2 (pix r c) (chan r c)) ?_).trans ?_
  · rw [Shape.rowMajor_val_two, Shape.rowMajor_val_three]
    show ((r.val / 32) * 16 + c.val / 32) * 1024 + ((c.val % 32) * 32 + r.val % 32)
      = ((r.val / 32) * 512 + c.val) * 32 + r.val % 32
    omega
  -- the transpose
  refine (transpose_apply [1, 0] _ h2 (ix2 (pix r c) (chan r c)) (ix2 (chan r c) (pix r c)) (fun b => ?_)).trans ?_
  · match b with
    | ⟨0, _⟩ => rfl
    | ⟨1, _⟩ => rfl
  -- the unit axis of the example
  refine shapeCast_apply v h1 (ix2 (chan r c) (pix r c)) (ix3 (0 : Fin 1) (chan r c) (pix r c)) ?_
  rw [Shape.rowMajor_val_three, Shape.rowMajor_val_two]
  show (0 * 1024 + ((c.val % 32) * 32 + r.val % 32)) * 256 + ((r.val / 32) * 16 + c.val / 32)
    = ((c.val % 32) * 32 + r.val % 32) * 256 + ((r.val / 32) * 16 + c.val / 32)
  omega

/-! ## The two reshapes around the examples -/

/-- Merging the pixel axes: merged pixel p of the merged array is pixel (p / 16, p % 16) of the argument. -/
theorem merged_apply {α : Type} (x : SArg.Idx → α) (h : SArg.ShapeCasts SMerged) (n : Fin 256) (q : Fin 1024) (p : Fin 256) :
    shapeCast SMerged x h (ix3 n q p)
      = x (ix4 n q (⟨p.val / 16, by have := p.isLt; omega⟩ : Fin 16) (⟨p.val % 16, by have := p.isLt; omega⟩ : Fin 16)) := by
  have hp : p.val < 256 := p.isLt
  refine shapeCast_apply x h _ _ ?_
  rw [Shape.rowMajor_val_four, Shape.rowMajor_val_three]
  show ((n.val * 1024 + q.val) * 16 + p.val / 16) * 16 + p.val % 16 = (n.val * 1024 + q.val) * 256 + p.val
  omega

/-- The merged pixel of row r and column c is pixel (r / 32, c / 32). -/
theorem merged_pix {α : Type} (x : SArg.Idx → α) (h : SArg.ShapeCasts SMerged) (n : Fin 256) (r c : Fin 512) :
    shapeCast SMerged x h (ix3 n (chan r c) (pix r c)) = x (ix4 n (chan r c) (tileOf r) (tileOf c)) := by
  rw [merged_apply]
  have hr : r.val < 512 := r.isLt
  have hc : c.val < 512 := c.isLt
  refine congrArg x (congrArg₂ (ix4 n (chan r c)) (Fin.ext ?_) (Fin.ext ?_))
  · show ((r.val / 32) * 16 + c.val / 32) / 16 = r.val / 32
    omega
  · show ((r.val / 32) * 16 + c.val / 32) % 16 = c.val / 32
    omega

/-- The unit channel axis of the result: entry (n, z, r, c) is image n's entry (r, c). -/
theorem unitChannel_apply {α : Type} (y : SImages.Idx → α) (h : SImages.BroadcastsInDim SRes (![0, 2, 3] : Fin 3 → Fin 4))
    (n : Fin 256) (z : Fin 1) (r c : Fin 512) :
    broadcastInDim SRes ![0, 2, 3] h y (ix4 n z r c) = y (ix3 n r c) := by
  refine broadcastInDim_apply _ h y _ _ (fun a => ?_)
  match a with
  | ⟨0, _⟩ => rfl
  | ⟨1, _⟩ => rfl
  | ⟨2, _⟩ => rfl

end Cert.Shuffle

end
-- ==== Proof.Reference.lean ====
/-
  The reference, read at an index: a reshape that splits the channel axis, a transpose of five axes, and a reshape that
  merges them again move the entry (n, j*32+i, h, w) of the argument to (n, 0, h*32+i, w*32+j) of the result. Read
  backwards, the result's entry at row r and column c is the argument's entry at channel (c % 32) * 32 + r % 32 and
  pixel (r / 32, c / 32): the function Shuffle.shuffled.
-/
import proofs.«164429_j146028888173_2_alg».proof.Defs
import proofs.«164429_j146028888173_2_alg».proof.Proof.Gen.ReferenceIdeal.Read
import proofs.«164429_j146028888173_2_alg».proof.Proof.Shuffle

noncomputable section

open Idealize.ShloMosaic Idealize.ShloMosaic.ValueIdx

namespace Cert.ReferenceIdeal.Shuffled

open Cert.ReferenceIdeal Cert.ReferenceIdeal.Read Cert.Shuffle

variable {F : FTy → Type} [FloatOps F]

/-- The last reshape: row r is (r / 32, r % 32) and column c is (c / 32, c % 32) of the five-axis array; the unit axis
    does not move the row-major position. -/
theorem split_image (i : S256x1x512x512.Idx) :
    idx_main_v2 i = ix5 (i 0) (tileOf (i 2)) (within (i 2)) (tileOf (i 3)) (within (i 3)) := by
  have h0 : (i 0).val < 256 := (i 0).isLt
  have h1 : (i 1).val < 1 := (i 1).isLt
  have h2 : (i 2).val < 512 := (i 2).isLt
  have h3 : (i 3).val < 512 := (i 3).isLt
  funext e
  apply Fin.ext
  match e with
  | ⟨0, _⟩ => show ((((i 0).val * 1 + (i 1).val) * 512 + (i 2).val) * 512 + (i 3).val) / 262144 = (i 0).val; omega
  | ⟨1, _⟩ => show ((((i 0).val * 1 + (i 1).val) * 512 + (i 2).val) * 512 + (i 3).val) / 16384 % 16 = (i 2).val / 32; omega
  | ⟨2, _⟩ => show ((((i 0).val * 1 + (i 1).val) * 512 + (i 2).val) * 512 + (i 3).val) / 512 % 32 = (i 2).val % 32; omega
  | ⟨3, _⟩ => show ((((i 0).val * 1 + (i 1).val) * 512 + (i 2).val) * 512 + (i 3).val) / 32 % 16 = (i 3).val / 32; omega
  | ⟨4, _⟩ => show ((((i 0).val * 1 + (i 1).val) * 512 + (i 2).val) * 512 + (i 3).val) % 32 = (i 3).val % 32; omega

/-- The transpose: result axes (n, h, i, w, j) read the operand's axes (n, j, i, h, w). -/
theorem permute (n : Fin 256) (a : Fin 16) (b : Fin 32) (c : Fin 16) (d : Fin 32) :
    idx_main_v1 (ix5 n a b c d) = ix5 n d b a c := by
  funext e
  match e with
  | ⟨0, _⟩ => rfl
  | ⟨1, _⟩ => rfl
  | ⟨2, _⟩ => rfl
  | ⟨3, _⟩ => rfl
  | ⟨4, _⟩ => rfl

/-- The first reshape: the channel's two halves (d, b) are channel d * 32 + b. -/
theorem merge_channel (n : Fin 256) (d b : Fin 32) (a c : Fin 16) :
    idx_main_v0 (ix5 n d b a c)
      = ix4 n (⟨d.val * 32 + b.val, by have := d.isLt; have := b.isLt; omega⟩ : Fin 1024) a c := by
  have hn : n.val < 256 := n.isLt
  have hd : d.val < 32 := d.isLt
  have hb : b.val < 32 := b.isLt
  have ha : a.val < 16 := a.isLt
  have hc : c.val < 16 := c.isLt
  funext e
  apply Fin.ext
  match e with
  | ⟨0, _⟩ => show ((((n.val * 32 + d.val) * 32 + b.val) * 16 + a.val) * 16 + c.val) / 262144 = n.val; omega
  | ⟨1, _⟩ => show ((((n.val * 32 + d.val) * 32 + b.val) * 16 + a.val) * 16 + c.val) / 256 % 1024 = d.val * 32 + b.val; omega
  | ⟨2, _⟩ => show ((((n.val * 32 + d.val) * 32 + b.val) * 16 + a.val) * 16 + c.val) / 16 % 16 = a.val; omega
  | ⟨3, _⟩ => show ((((n.val * 32 + d.val) * 32 + b.val) * 16 + a.val) * 16 + c.val) % 16 = c.val; omega

/-- The three steps composed: the result's index i reads the argument at src i. -/
theorem src_eq (i : S256x1x512x512.Idx) : idx_main_v0 (idx_main_v1 (idx_main_v2 i)) = src i := by
  rw [split_image]
  exact (congrArg idx_main_v0 (permute (i 0) (tileOf (i 2)) (within (i 2)) (tileOf (i 3)) (within (i 3)))).trans
    (merge_channel (i 0) (within (i 3)) (within (i 2)) (tileOf (i 2)) (tileOf (i 3)))

/-- THE REFERENCE IS THE SPECIFICATION: its result, as a function of the argument, is shuffled. -/
theorem reference_eq (x0 : (⟨S256x1024x16x16, .f32⟩ : BufTy).Contents (Elt F)) :
    val_main_v2 (F := F) x0 = shuffled x0 := by
  funext i
  rw [val_main_v2_apply, val_main_v1_apply, val_main_v0_apply]
  exact congrArg x0 (src_eq i)

end Cert.ReferenceIdeal.Shuffled

end
-- ==== Proof.LibLoopPieces.lean ====
/-
  Stores made trip by trip by a counted loop, read as pieces of one function.

  A loop that stores into a buffer leaves a list of pieces (a rectangle of the buffer and the value stored through it),
  last store first. When the list before trip k + 1 is trip k's own pieces in front of the list before trip k, and every
  trip's pieces are pieces of ONE function G of the buffer's index (a piece's value at its own index x is G at the
  place x has in the buffer), then so are all the pieces of the trips below any n up to the trip count: by induction on
  n, one trip at a time, whatever the trip count. With the library's lemma on the contents a list of such pieces
  leaves, the buffer holds G wherever some store of the loop covers.
-/
import Idealize.ShloMosaic.Lib.Pipeline.Value

noncomputable section

namespace Cert.LoopPieces

open Idealize.ShloMosaic

variable {Val : EltTy → Type} {S : Shape} {e : EltTy}

/-- Let `pb n` be the pieces of the trips below n of a loop of N trips: none before the first trip (`h0`), and trip k's
    pieces `tripL k` in front of the earlier ones (`hsucc`). If every trip's pieces are pieces of G (`htrip`), every piece
    of the trips below n is a piece of G, for every n up to N. -/
theorem pieces_of_trips (G : S.Idx → Val e) {N : ℕ} (pb : ℕ → List (View.Piece Val S e))
    (tripL : Fin N → List (View.Piece Val S e)) (h0 : pb 0 = [])
    (hsucc : ∀ k : Fin N, pb (k.val + 1) = tripL k ++ pb k.val)
    (htrip : ∀ k : Fin N, ∀ p ∈ tripL k, ∀ x : p.1.shape.Idx, p.2 x = G (p.1.emb x)) :
    ∀ n : ℕ, n ≤ N → ∀ p ∈ pb n, ∀ x : p.1.shape.Idx, p.2 x = G (p.1.emb x)
  | 0, _ => fun p hp => absurd hp (by rw [h0]; exact List.not_mem_nil)
  | n + 1, hn => fun p hp => by
    have hs : pb (n + 1) = tripL ⟨n, hn⟩ ++ pb n := hsucc ⟨n, hn⟩
    rw [hs] at hp
    rcases List.mem_append.mp hp with h | h
    · exact htrip ⟨n, hn⟩ p h
    · exact pieces_of_trips G pb tripL h0 hsucc htrip n (Nat.le_of_lt hn) p h

/-- So after the whole loop the buffer holds G at every index some store of the loop covers. -/
theorem canon_of_trips [∀ e, Nonempty (Val e)] (G : S.Idx → Val e) {N : ℕ} (pb : ℕ → List (View.Piece Val S e))
    (tripL : Fin N → List (View.Piece Val S e)) (h0 : pb 0 = [])
    (hsucc : ∀ k : Fin N, pb (k.val + 1) = tripL k ++ pb k.val)
    (htrip : ∀ k : Fin N, ∀ p ∈ tripL k, ∀ x : p.1.shape.Idx, p.2 x = G (p.1.emb x))
    (y : S.Idx) (hy : ∃ p ∈ pb N, y ∈ p.1.set) : View.canon (pb N) y = G y :=
  View.canon_apply_of_pieces G (pb N) (pieces_of_trips G pb tripL h0 hsucc htrip N (Nat.le_refl N)) y hy

end Cert.LoopPieces

end
-- ==== Proof.Body.lean ====
/-
  What the kernel body leaves in the output block at one grid point.

  A block of the input holds 8 examples, each as 1024 channels by 256 merged pixels; the body's loop takes them one by
  one, relays each out as a 512 x 512 image and stores it as slab k of the output block. So the output block, entry by
  entry, is one function of the input block: entry (b, r, c) is the input block's entry (b, chan r c, pix r c). The loop's
  8 stores are pieces of that function, and together they cover the block.
-/
import proofs.«164429_j146028888173_2_alg».proof.Proof.Gen.KernelIdeal.Frame
import proofs.«164429_j146028888173_2_alg».proof.Proof.Shuffle
import proofs.«164429_j146028888173_2_alg».proof.Proof.LibLoopPieces
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Shuffle

variable {F : FTy → Type} [FloatOps F]

/-- The output block as a function of the input block: example b's image, entry (r, c), is example b's channel
    chan r c at merged pixel pix r c. -/
def images (x0 : Vec F S8x1024x256 .f32) : Vec F S8x512x512 .f32 :=
  fun y => x0 (ix3 (y 0) (chan (y 1) (y 2)) (pix (y 1) (y 2)))

/-- The stored value of one trip, at an index: the relayout of the loaded example. -/
theorem payload_apply (v : Vec F S1x1024x256 .f32) (z : Fin 1) (r c : Fin 512) :
    k0_pay1 v (ix3 z r c) = v (ix3 (0 : Fin 1) (chan r c) (pix r c)) := by
  unfold k0_pay1
  exact relayout_apply v _ _ _ _ _ _ z r c

/-- A store of the relayout of slab b of the input block, made at slab b of the output block, is a piece of images:
    its value at its own index x is images at the place x has in the block. -/
theorem slab_piece (x0 : Vec F S8x1024x256 .f32) (b : Nat) (o1 o2 : Fin 3 → Nat) (h1 : o1 = ![b, 0, 0]) (h2 : o2 = ![b, 0, 0])
    (inb1 : ∀ a, o1 a + S1x1024x256.size a ≤ S8x1024x256.size a) (inb2 : ∀ a, o2 a + S1x512x512.size a ≤ S8x512x512.size a)
    (x : S1x512x512.Idx) :
    k0_pay1 (View.ld x0 (Rect.unit (s := S8x1024x256) o1 S1x1024x256.size inb1)) x
      = images x0 ((Rect.unit (s := S8x512x512) o2 S1x512x512.size inb2).emb x) := by
  subst h1 h2
  obtain ⟨z, r, q, rfl⟩ : ∃ (z : Fin 1) (r q : Fin 512), x = ix3 z r q := ⟨x 0, x 1, x 2, eq_ix3 x⟩
  have hz : z.val < 1 := z.isLt
  have hr : r.val < 512 := r.isLt
  have hq : q.val < 512 := q.isLt
  refine (payload_apply _ z r q).trans ?_
  unfold images
  refine congrArg x0 (funext fun a => Fin.ext ?_)
  match a with
  | ⟨0, _⟩ =>
    show b + 1 * 0 = b + 1 * z.val
    omega
  | ⟨1, _⟩ =>
    show 0 + 1 * ((q.val % 32) * 32 + r.val % 32) = ((0 + 1 * q.val) % 32) * 32 + (0 + 1 * r.val) % 32
    omega
  | ⟨2, _⟩ =>
    show 0 + 1 * ((r.val / 32) * 16 + q.val / 32) = ((0 + 1 * r.val) / 32) * 16 + (0 + 1 * q.val) / 32
    omega

variable (c : Dev nD) (i : grid0.Coords) (arg1 : Memref sig .tc .vmem S8x1024x256 .f32) (harg1 : arg1.IsWhole)
  (arg2 : Memref sig .tc .vmem S8x512x512 .f32) (harg2 : arg2.IsWhole)

/-- What trip k stores: one piece, at slab k of the output block, the relayout of the slab it loaded. -/
theorem trip_pieces (X : BufTy.Contents (Elt F) arg1.view.ty) (k : Fin k0_t1_loop.trips) :
    tripL_k0_t1 (F := F) Variants.none c none i arg1 harg1 arg2 harg2 X k
      = [⟨Rect.unit (s := S8x512x512) (k0_off2 k) S1x512x512.size (k0_off2_inb k),
          k0_pay1 (View.readAt (Elt F) arg1.view (Rect.unit (s := S8x1024x256) (k0_off1 k) S1x1024x256.size (k0_off1_inb k)).toLoadRect X)⟩] := by
  show (trip_k0_t1 (F := F) Variants.none c none i arg1 harg1 arg2 harg2 X k).1 = _
  unfold trip_k0_t1
  rfl

/-- The stores of the whole loop are the pieces of the trips below the trip count. -/
theorem run_pieces (x0 : Vec F S8x1024x256 .f32) :
    (kernelRun0_A c i arg1 harg1 arg2 harg2 x0).1
      = pb_k0_t1 (F := F) Variants.none c none i arg1 harg1 arg2 harg2 (harg1.unread x0) k0_t1_loop.trips := by
  unfold kernelRun0_A
  rfl

/-- Every store of the loop is a piece of images of the input block: each trip's one piece is (the slab it loaded is a
    slab of the input block, which the staging buffer holds), and the trips add up one at a time. -/
theorem pieces_of_images (x0 : Vec F S8x1024x256 .f32) :
    ∀ p ∈ pb_k0_t1 (F := F) Variants.none c none i arg1 harg1 arg2 harg2 (harg1.unread x0) k0_t1_loop.trips,
      ∀ x : p.1.shape.Idx, p.2 x = images x0 (p.1.emb x) :=
  Cert.LoopPieces.pieces_of_trips (images x0)
    (pb_k0_t1 (F := F) Variants.none c none i arg1 harg1 arg2 harg2 (harg1.unread x0))
    (tripL_k0_t1 (F := F) Variants.none c none i arg1 harg1 arg2 harg2 (harg1.unread x0))
    (by rw [pb_k0_t1])
    (pb_k0_t1_succ (F := F) Variants.none c none i arg1 harg1 arg2 harg2 (harg1.unread x0))
    (fun k p hp => by
      rw [trip_pieces] at hp
      obtain rfl := List.mem_singleton.mp hp
      intro x
      have e : View.readAt (Elt F) arg1.view (Rect.unit (s := S8x1024x256) (k0_off1 k) S1x1024x256.size (k0_off1_inb k)).toLoadRect (harg1.unread x0)
          = View.ld x0 (Rect.unit (s := S8x1024x256) (k0_off1 k) S1x1024x256.size (k0_off1_inb k)) := by
        rw [View.readAt_eq_ld, harg1.read_unread]
      show k0_pay1 (View.readAt (Elt F) arg1.view (Rect.unit (s := S8x1024x256) (k0_off1 k) S1x1024x256.size (k0_off1_inb k)).toLoadRect (harg1.unread x0)) x = _
      rw [e]
      exact slab_piece x0 k.val _ _ (k0_off1_eq k) (k0_off2_eq k) (k0_off1_inb k) (k0_off2_inb k) x)
    k0_t1_loop.trips (Nat.le_refl _)

/-- WHAT THE BODY LEAVES in the output block, from the input block x0: images x0. The loop's stores cover the block, and each
    is a piece of images x0. -/
theorem out_eq (x0 : Vec F S8x1024x256 .f32) : out0_A_1 c i arg1 harg1 arg2 harg2 x0 = images x0 := by
  unfold out0_A_1
  rw [View.read_writes_eq_canon _ _ _ (cover0_A_1 c i arg1 harg1 arg2 harg2 x0)]
  funext y
  refine View.canon_apply_of_pieces (images x0) _ (fun p hp => ?_) y (cover0_A_1 c i arg1 harg1 arg2 harg2 x0 y)
  rw [run_pieces] at hp
  exact pieces_of_images c i arg1 harg1 arg2 harg2 x0 p hp

end Cert.KernelIdeal.Body

end
-- ==== Proof.Whole.lean ====
/-
  The kernel's result as one function of its argument.

  The grid has 32 points; point t reads examples 8t .. 8t+7 of the merged argument and writes back images 8t .. 8t+7.
  What a point writes back is, entry by entry, a block of one function of the merged argument: image n, entry (r, c),
  is example n's channel chan r c at merged pixel pix r c. The 32 blocks cover the image array, so after the run the
  array is that function. The reshape before the region merges the two pixel axes and the broadcast after it adds the
  unit channel axis: together, the result is Shuffle.shuffled of the argument.
-/
import proofs.«164429_j146028888173_2_alg».proof.Proof.Body
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Shuffle Cert.KernelIdeal.Body

variable {F : FTy → Type} [FloatOps F]
variable (m : (ℓ : Loc nD τ sig) → Buf (Elt F) ℓ) (ρ : Dev nD → PrngReg)

/-- The image array as a function of the merged array: image n at (r, c) is example n at (chan r c, pix r c). -/
def imagesOf (a : S256x1024x256.Idx → Elt F .f32) : S256x512x512.Idx → Elt F .f32 :=
  fun j => a (ix3 (j 0) (chan (j 1) (j 2)) (pix (j 1) (j 2)))

/-- Both windows' blocks move with the point along the examples and nowhere else. -/
theorem index_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT t WRITES BACK is block t of imagesOf of the merged argument as the region finds it: the body leaves
    images of the input block, and example b of block t is example 8t + b of the array. -/
theorem flushed_eq (c : Dev nD) (t : Fin cfg0.N) :
    (dats m 0 c).flushed 1 t = ((cfg0.win 1).blk t).view.read (Elt F) (imagesOf (V m c main_v0)) := by
  show (cfg0.win 1).cut (grid0.coords t) ((dats m 0 c).after 1 t) = _
  rw [after0_1]
  unfold outsAt0
  rw [out_eq]
  obtain ⟨e0, e1, e2, e3, e4, e5⟩ := index_facts t
  funext y
  have hy0 : (y 0).val < 8 := (y 0).isLt
  have hy1 : (y 1).val < 512 := (y 1).isLt
  have hy2 : (y 2).val < 512 := (y 2).isLt
  show V m c main_v0 (((cfg0.win 0).blk t).view.emb (ix3 (y 0) (chan (y 1) (y 2)) (pix (y 1) (y 2))))
    = imagesOf (V m c main_v0) (((cfg0.win 1).blk t).view.emb y)
  unfold imagesOf
  refine congrArg (V m c main_v0) (funext fun a => Fin.ext ?_)
  match a with
  | ⟨0, _⟩ =>
    show win0_0.index t (0 : Fin 3) * 8 + 1 * (y 0).val = win0_1.index t (0 : Fin 3) * 8 + 1 * (y 0).val
    omega
  | ⟨1, _⟩ =>
    show win0_0.index t (1 : Fin 3) * 1024 + 1 * (((y 2).val % 32) * 32 + (y 1).val % 32)
      = ((win0_1.index t (2 : Fin 3) * 512 + 1 * (y 2).val) % 32) * 32 + (win0_1.index t (1 : Fin 3) * 512 + 1 * (y 1).val) % 32
    omega
  | ⟨2, _⟩ =>
    show win0_0.index t (2 : Fin 3) * 256 + 1 * (((y 1).val / 32) * 16 + (y 2).val / 32)
      = ((win0_1.index t (1 : Fin 3) * 512 + 1 * (y 1).val) / 32) * 16 + (win0_1.index t (2 : Fin 3) * 512 + 1 * (y 2).val) / 32
    omega

/-- An index of the image array is in point t's block iff each coordinate is in the block's range on its axis. -/
theorem mem_blk (t : Fin cfg0.N) (i : S256x512x512.Idx) :
    i ∈ ((cfg0.win 1).blk t).view.set ↔ ∀ a : Fin 3, win0_1.index t a * S8x512x512.size a ≤ (i a).val
      ∧ (i a).val < win0_1.index t a * S8x512x512.size a + S8x512x512.size a := by
  show i ∈ ((View.whole main_v1).slice (win0_1.rect t)).set ↔ _
  rw [View.set_slice_whole, Rect.mem_set_unit]
  exact Iff.rfl

/-- Image n is in the block of point n / 8: the blocks cover the array. -/
theorem cover (i : S256x512x512.Idx) :
    ∃ t : Fin cfg0.N, (cfg0.win 1).flush t = true ∧ i ∈ ((cfg0.win 1).blk t).view.set := by
  have h0 : (i 0).val < 256 := (i 0).isLt
  have h1 : (i 1).val < 512 := (i 1).isLt
  have h2 : (i 2).val < 512 := (i 2).isLt
  have hN : cfg0.N = 32 := N_0
  obtain ⟨t, ht⟩ : ∃ t : Fin cfg0.N, t.val = (i 0).val / 8 := ⟨⟨(i 0).val / 8, by rw [hN]; omega⟩, rfl⟩
  obtain ⟨-, -, -, e3, e4, e5⟩ := index_facts t
  refine ⟨t, flush0_1 t, ?_⟩
  rw [mem_blk]
  intro a
  match a with
  | ⟨0, _⟩ =>
    show win0_1.index t (0 : Fin 3) * 8 ≤ (i 0).val ∧ (i 0).val < win0_1.index t (0 : Fin 3) * 8 + 8
    omega
  | ⟨1, _⟩ =>
    show win0_1.index t (1 : Fin 3) * 512 ≤ (i 1).val ∧ (i 1).val < win0_1.index t (1 : Fin 3) * 512 + 512
    omega
  | ⟨2, _⟩ =>
    show win0_1.index t (2 : Fin 3) * 512 ≤ (i 2).val ∧ (i 2).val < win0_1.index t (2 : Fin 3) * 512 + 512
    omega

/-- THE IMAGE ARRAY after the run: imagesOf of the merged argument. -/
theorem final (c : Dev nD) : (dats m 0 c).arrAt 1 cfg0.N = imagesOf (V m c main_v0) :=
  (dats m 0 c).arrAt_eq_of_cover 1 (imagesOf (V m c main_v0)) (fun t _ => flushed_eq m c t) cover

/-- The merged argument as the region finds it: the reshape of the argument. -/
theorem merged (c : Dev nD) : (V m c main_v0 : S256x1024x256.Idx → Elt F .f32)
    = shapeCast S256x1024x256 (m ((c : Thread nD τ).loc main_arg0)) shapeCasts_S256x1024x16x16_S256x1024x256 := by
  show StableHlo.after hostOps0 (fun b => m (c, b)) (Proc.devRef .tc main_v0) = _
  after_results
  rfl

/-- THE RESULT after the host operation that follows the region: shuffled of the argument. -/
theorem result (c : Dev nD) :
    Pipeline.afterTail₀ cfgs (dats m) 0 (V0 m) [hostOps1] c main_v2 = shuffled (m ((c : Thread nD τ).loc main_arg0)) := by
  unfold Pipeline.afterTail₀
  show StableHlo.after hostOps1 _ (Proc.devRef .tc main_v2) = _
  after_results
  -- the image array the tail reads is the one the region left
  have hw : (Pipeline.withArrays (cfgs 0).spec c (V0 m c) (fun w => (dats m 0 c).arrAt w (cfgs 0).N) (Proc.devRef .tc main_v1)
      : S256x512x512.Idx → Elt F .f32) = imagesOf (V m c main_v0) :=
    (Pipeline.withArrays_arr spec0 launch0.win.arr_inj c _ _ 1).trans (final m c)
  refine (congrArg (broadcastInDim S256x1x512x512 ![0, 2, 3] bcast_S256x512x512_S256x1x512x512_0_2_3) hw).trans ?_
  funext i
  obtain ⟨n, z, r, q, rfl⟩ : ∃ (n : Fin 256) (z : Fin 1) (r q : Fin 512), i = ix4 n z r q := ⟨i 0, i 1, i 2, i 3, eq_ix4 i⟩
  -- the unit channel axis, then image n at (r, q), then the merged pixel as a pixel
  refine (unitChannel_apply _ _ n z r q).trans ?_
  show V m c main_v0 (ix3 n (chan r q) (pix r q)) = _
  refine (congrFun (merged m c) (ix3 n (chan r q) (pix r q))).trans ?_
  exact merged_pix _ _ n r q

/-- THE RUN, READ: every weakly fair execution of the kernel's program ends with the result at shuffled of the argument
    and the argument as it was. -/
theorem run : θ_run defs (onTc (τ := τ) (main (F := F))) ⟨m, fun _ => 0, ρ⟩ fun r => ∀ c : Dev nD,
      r.2.mem ((c.tc : Thread nD τ).loc main_v2) = shuffled (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result m c),
        ((h c).2 main_arg0 (Pipeline.mem_restRefs_of main_arg0 (by decide) (by decide))).trans (W_main_arg0 m (dats m) c)⟩)
    (run_main m ρ)

end Cert.KernelIdeal.Whole

end
-- ==== Proof.lean ====
/- The proof of `Cert.Claim`.

   Both programs rearrange an array x[n, ch, h, w] of 256 examples, 1024 = 32 * 32 channels and 16 x 16 pixels into
   images y[n, 0, r, c] of 512 x 512 entries, and compute nothing on the entries: y[n, 0, h*32 + i, w*32 + j] =
   x[n, j*32 + i, h, w]. Proof/Shuffle.lean states this as one function of the argument, `shuffled`: the entry at row r
   and column c is read at channel (c % 32) * 32 + r % 32 and pixel (r / 32, c / 32).

   The reference reshapes, transposes five axes and reshapes; composing the three index maps gives `shuffled`
   (Proof/Reference.lean). The kernel merges the pixel axes, then at each of 32 grid points takes 8 examples and, one per
   trip of a loop, transposes an example's 1024 x 256 matrix, splits and exchanges axes, and stores a 512 x 512 image;
   each store is a piece of one function of the input block (the trips taken one at a time: Proof/LibLoopPieces.lean), the 8
   pieces cover the output block (Proof/Body.lean), the 32
   blocks cover the image array, and the unit channel axis is added after the region (Proof/Whole.lean). Both results are
   `shuffled` of arguments that agree, so they are equal, entry by entry, whatever the entries are: no entry needs to be
   finite. The kernel's idealization rewrote no operation, so there is nothing to preserve. -/
import proofs.«164429_j146028888173_2_alg».proof.Defs
import proofs.«164429_j146028888173_2_alg».proof.Proof.Gen.Kernel
import proofs.«164429_j146028888173_2_alg».proof.Proof.Gen.Kernel.Frame
import proofs.«164429_j146028888173_2_alg».proof.Proof.Gen.KernelIdeal
import proofs.«164429_j146028888173_2_alg».proof.Proof.Gen.KernelIdeal.Frame
import proofs.«164429_j146028888173_2_alg».proof.Proof.Gen.ReferenceIdeal
import proofs.«164429_j146028888173_2_alg».proof.Proof.Gen.ReferenceIdeal.Run
import proofs.«164429_j146028888173_2_alg».proof.Proof.Gen.ReferenceIdeal.Read
import proofs.«164429_j146028888173_2_alg».proof.Proof.Gen.Pre_finite_inputs
import proofs.«164429_j146028888173_2_alg».proof.Proof.Shuffle
import proofs.«164429_j146028888173_2_alg».proof.Proof.Reference
import proofs.«164429_j146028888173_2_alg».proof.Proof.Body
import proofs.«164429_j146028888173_2_alg».proof.Proof.Whole
import Idealize.ShloMosaic.Adequacy
import Idealize.ShloMosaic.Init

noncomputable section

namespace Cert.Proof

open Idealize.ShloMosaic Idealize.SL.Sem

/-- The kernel as printed runs, and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument as it was: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result is `shuffled` of its argument and so is the reference's. -/
theorem algebraic : Cert.algebraic_KernelIdeal_ReferenceIdeal := by
  intro m ρ m' ρ' _ hagree
  refine ⟨fun c => Cert.Shuffle.shuffled (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Shuffled.reference_eq (F := Ideal) _).trans (congrArg Cert.Shuffle.shuffled (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
